-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x500000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S5000x128 : Shape := ⟨2, ![5000, 128]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩

abbrev nBuf : Space → Nat
  | .hbm => 147
  | .vmem => 24
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x500000, .i32⟩
  | 10 => ⟨S500000, .i32⟩
  | 11 => ⟨S1x500000, .i32⟩
  | 12 => ⟨S500000, .i32⟩
  | 13 => ⟨S50000x128, .f32⟩
  | 14 => ⟨S50000, .i32⟩
  | 15 => ⟨S550000, .i32⟩
  | 16 => ⟨S550000, .i32⟩
  | 17 => ⟨S_, .f32⟩
  | 18 => ⟨S550000, .f32⟩
  | 19 => ⟨S_, .f32⟩
  | 20 => ⟨S50000, .f32⟩
  | 21 => ⟨S550000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S550000, .i32⟩
  | 36 => ⟨S550000, .i1⟩
  | 37 => ⟨S_, .i32⟩
  | 38 => ⟨S550000, .i32⟩
  | 39 => ⟨S550000, .i32⟩
  | 40 => ⟨S550000, .i32⟩
  | 41 => ⟨S550000x1, .i32⟩
  | 42 => ⟨S550000, .f32⟩
  | 43 => ⟨S_, .i32⟩
  | 44 => ⟨S550000, .i32⟩
  | 45 => ⟨S550000, .i1⟩
  | 46 => ⟨S_, .i32⟩
  | 47 => ⟨S550000, .i32⟩
  | 48 => ⟨S550000, .i32⟩
  | 49 => ⟨S550000, .i32⟩
  | 50 => ⟨S550000x1, .i32⟩
  | 51 => ⟨S550000, .f32⟩
  | 52 => ⟨S550000, .f32⟩
  | 53 => ⟨S_, .i32⟩
  | 54 => ⟨S550000, .i32⟩
  | 55 => ⟨S550000, .i1⟩
  | 56 => ⟨S_, .i32⟩
  | 57 => ⟨S550000, .i32⟩
  | 58 => ⟨S550000, .i32⟩
  | 59 => ⟨S550000, .i32⟩
  | 60 => ⟨S550000x1, .i32⟩
  | 61 => ⟨S550000x128, .f32⟩
  | 62 => ⟨S550000x1, .f32⟩
  | 63 => ⟨S550000x128, .f32⟩
  | 64 => ⟨S550000x128, .f32⟩
  | 65 => ⟨S_, .f32⟩
  | 66 => ⟨S50000x128, .f32⟩
  | 67 => ⟨S550000x1, .i32⟩
  | 68 => ⟨S50000x128, .f32⟩
  | 69 => ⟨S1x128, .f32⟩
  | 70 => ⟨S50000x128, .f32⟩
  | 71 => ⟨S50000x128, .f32⟩
  | 72 => ⟨S50000, .i32⟩
  | 73 => ⟨S550000, .i32⟩
  | 74 => ⟨S550000, .i32⟩
  | 75 => ⟨S_, .f32⟩
  | 76 => ⟨S550000, .f32⟩
  | 77 => ⟨S_, .f32⟩
  | 78 => ⟨S50000, .f32⟩
  | 79 => ⟨S550000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S550000, .i32⟩
  | 94 => ⟨S550000, .i1⟩
  | 95 => ⟨S_, .i32⟩
  | 96 => ⟨S550000, .i32⟩
  | 97 => ⟨S550000, .i32⟩
  | 98 => ⟨S550000, .i32⟩
  | 99 => ⟨S550000x1, .i32⟩
  | 100 => ⟨S550000, .f32⟩
  | 101 => ⟨S_, .i32⟩
  | 102 => ⟨S550000, .i32⟩
  | 103 => ⟨S550000, .i1⟩
  | 104 => ⟨S_, .i32⟩
  | 105 => ⟨S550000, .i32⟩
  | 106 => ⟨S550000, .i32⟩
  | 107 => ⟨S550000, .i32⟩
  | 108 => ⟨S550000x1, .i32⟩
  | 109 => ⟨S550000, .f32⟩
  | 110 => ⟨S550000, .f32⟩
  | 111 => ⟨S_, .i32⟩
  | 112 => ⟨S550000, .i32⟩
  | 113 => ⟨S550000, .i1⟩
  | 114 => ⟨S_, .i32⟩
  | 115 => ⟨S550000, .i32⟩
  | 116 => ⟨S550000, .i32⟩
  | 117 => ⟨S550000, .i32⟩
  | 118 => ⟨S550000x1, .i32⟩
  | 119 => ⟨S550000x128, .f32⟩
  | 120 => ⟨S550000x1, .f32⟩
  | 121 => ⟨S550000x128, .f32⟩
  | 122 => ⟨S550000x128, .f32⟩
  | 123 => ⟨S_, .f32⟩
  | 124 => ⟨S50000x128, .f32⟩
  | 125 => ⟨S550000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S_, .f32⟩
  | 2 => ⟨S1024x128, .f32⟩
  | 3 => ⟨S50000x1, .i32⟩
  | 4 => ⟨S1024x128, .f32⟩
  | 5 => ⟨S_, .f32⟩
  | 6 => ⟨S50000, .f32⟩
  | 7 => ⟨S_, .f32⟩
  | 8 => ⟨S1024, .f32⟩
  | 9 => ⟨S50000x1, .i32⟩
  | 10 => ⟨S1024, .f32⟩
  | 11 => ⟨S_, .f32⟩
  | 12 => ⟨S1024, .f32⟩
  | 13 => ⟨S1024, .f32⟩
  | 14 => ⟨S1024x1, .f32⟩
  | 15 => ⟨S1024x128, .f32⟩
  | 16 => ⟨S1024x128, .f32⟩
  | 17 => ⟨S1x128, .f32⟩
  | 18 => ⟨S1024x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1024x128, .f32⟩
  | .local _ .vmem, ⟨21, _⟩ => ⟨S128x128, .f32⟩
  | .local _ .vmem, ⟨22, _⟩ => ⟨S1x128, .f32⟩
  | .local _ .vmem, ⟨23, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_23 : Ref sig .tc := ⟨.hbm, 133, rfl⟩
abbrev main_v95 : Ref sig .tc := ⟨.hbm, 134, rfl⟩
abbrev main_cst_24 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_25 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  dot_S5000x128_S128x128_S5000x128_1_0_0_1_n_n_wf : DotDims.WF S5000x128 S128x128 S5000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S1024x128.size a
  hwx4_3 : ∀ i : grid4.Coords, EltTy.bits .f32 = 32 ∨ (Rect.block (s := S1024x128) S1024x128.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v103) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v105) S1024x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x500000, .i32⟩
  | 10 => ⟨S500000, .i32⟩
  | 11 => ⟨S1x500000, .i32⟩
  | 12 => ⟨S500000, .i32⟩
  | 13 => ⟨S50000x128, .f32⟩
  | 14 => ⟨S50000, .i32⟩
  | 15 => ⟨S550000, .i32⟩
  | 16 => ⟨S550000, .i32⟩
  | 17 => ⟨S_, .f32⟩
  | 18 => ⟨S550000, .f32⟩
  | 19 => ⟨S_, .f32⟩
  | 20 => ⟨S50000, .f32⟩
  | 21 => ⟨S550000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S550000, .i32⟩
  | 36 => ⟨S550000, .i1⟩
  | 37 => ⟨S_, .i32⟩
  | 38 => ⟨S550000, .i32⟩
  | 39 => ⟨S550000, .i32⟩
  | 40 => ⟨S550000, .i32⟩
  | 41 => ⟨S550000x1, .i32⟩
  | 42 => ⟨S550000, .f32⟩
  | 43 => ⟨S_, .i32⟩
  | 44 => ⟨S550000, .i32⟩
  | 45 => ⟨S550000, .i1⟩
  | 46 => ⟨S_, .i32⟩
  | 47 => ⟨S550000, .i32⟩
  | 48 => ⟨S550000, .i32⟩
  | 49 => ⟨S550000, .i32⟩
  | 50 => ⟨S550000x1, .i32⟩
  | 51 => ⟨S550000, .f32⟩
  | 52 => ⟨S550000, .f32⟩
  | 53 => ⟨S_, .i32⟩
  | 54 => ⟨S550000, .i32⟩
  | 55 => ⟨S550000, .i1⟩
  | 56 => ⟨S_, .i32⟩
  | 57 => ⟨S550000, .i32⟩
  | 58 => ⟨S550000, .i32⟩
  | 59 => ⟨S550000, .i32⟩
  | 60 => ⟨S550000x1, .i32⟩
  | 61 => ⟨S550000x128, .f32⟩
  | 62 => ⟨S550000x1, .f32⟩
  | 63 => ⟨S550000x128, .f32⟩
  | 64 => ⟨S550000x128, .f32⟩
  | 65 => ⟨S_, .f32⟩
  | 66 => ⟨S50000x128, .f32⟩
  | 67 => ⟨S550000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000, .i32⟩
  | 77 => ⟨S550000, .i32⟩
  | 78 => ⟨S550000, .i32⟩
  | 79 => ⟨S_, .f32⟩
  | 80 => ⟨S550000, .f32⟩
  | 81 => ⟨S_, .f32⟩
  | 82 => ⟨S50000, .f32⟩
  | 83 => ⟨S550000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S550000, .i32⟩
  | 98 => ⟨S550000, .i1⟩
  | 99 => ⟨S_, .i32⟩
  | 100 => ⟨S550000, .i32⟩
  | 101 => ⟨S550000, .i32⟩
  | 102 => ⟨S550000, .i32⟩
  | 103 => ⟨S550000x1, .i32⟩
  | 104 => ⟨S550000, .f32⟩
  | 105 => ⟨S_, .i32⟩
  | 106 => ⟨S550000, .i32⟩
  | 107 => ⟨S550000, .i1⟩
  | 108 => ⟨S_, .i32⟩
  | 109 => ⟨S550000, .i32⟩
  | 110 => ⟨S550000, .i32⟩
  | 111 => ⟨S550000, .i32⟩
  | 112 => ⟨S550000x1, .i32⟩
  | 113 => ⟨S550000, .f32⟩
  | 114 => ⟨S550000, .f32⟩
  | 115 => ⟨S_, .i32⟩
  | 116 => ⟨S550000, .i32⟩
  | 117 => ⟨S550000, .i1⟩
  | 118 => ⟨S_, .i32⟩
  | 119 => ⟨S550000, .i32⟩
  | 120 => ⟨S550000, .i32⟩
  | 121 => ⟨S550000, .i32⟩
  | 122 => ⟨S550000x1, .i32⟩
  | 123 => ⟨S550000x128, .f32⟩
  | 124 => ⟨S550000x1, .f32⟩
  | 125 => ⟨S550000x128, .f32⟩
  | 126 => ⟨S550000x128, .f32⟩
  | 127 => ⟨S_, .f32⟩
  | _ => ⟨S50000x128, .f32⟩

abbrev hbmTy0_1 (i : Nat) : BufTy := match i % 128 with
  | 0 => ⟨S50000x128, .f32⟩
  | 1 => ⟨S550000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S1024x128, .f32⟩
  | 11 => ⟨S50000x1, .i32⟩
  | 12 => ⟨S1024x128, .f32⟩
  | 13 => ⟨S_, .f32⟩
  | 14 => ⟨S50000, .f32⟩
  | 15 => ⟨S_, .f32⟩
  | 16 => ⟨S1024, .f32⟩
  | 17 => ⟨S50000x1, .i32⟩
  | 18 => ⟨S1024, .f32⟩
  | 19 => ⟨S_, .f32⟩
  | 20 => ⟨S1024, .f32⟩
  | 21 => ⟨S1024, .f32⟩
  | 22 => ⟨S1024x1, .f32⟩
  | 23 => ⟨S1024x128, .f32⟩
  | 24 => ⟨S1024x128, .f32⟩
  | 25 => ⟨S1024x128, .f32⟩
  | 26 => ⟨S1x128, .f32⟩
  | 27 => ⟨S1024x128, .f32⟩
  | 28 => ⟨S1024x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_c_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_21 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_cst_24 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  dot_S50000x128_S128x128_S50000x128_1_0_0_1_n_n_wf : DotDims.WF S50000x128 S128x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x128_S1024x128_1_0_0_1_n_n_wf : DotDims.WF S1024x128 S128x128 S1024x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.RunValue.lean ====
/-
  The idealized kernel's run with its RESULT named.

  The program is thirteen segments: stretches of host operations and five kernel launches. Folding the segments over the
  launch memory gives the buffer contents at every boundary; the last boundary's contents, `W13`, are what every final
  state's memory holds at each unscoped buffer. Read at the result buffer this names the result; read at an argument it
  is the argument as launched.
-/
import proofs.«118057_j2224793059951_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; in its final state the result buffer holds the last
    boundary's contents at that buffer, and every argument is as launched. -/
theorem run_result : θ_run defs (onTc (τ := τ) (main (F := F))) ⟨m, fun _ => 0, ρ⟩ (fun r => ∀ c : Dev nD,
      r.2.mem ((c.tc : Thread nD τ).loc main_v105) = W13 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v105 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.RunValue

end
-- ==== Proof.Carry.lean ====
/-
  Which buffers still hold their launch contents at each boundary of the program.

  The program is a chain of stretches of host operations and kernel launches. A stretch leaves every buffer it does not
  write; a launch leaves every buffer that is not one of its windows' arrays. Walking forward from the launch memory, the
  arguments read later (the weights and biases of the later layers, the graph ids) and the two edge-index vectors cut out
  of the edge list by the first stretch are still what they were when a later segment reads them.
-/
import proofs.«118057_j2224793059951_1_alg».proof.Proof.Gen.KernelIdeal.Frame
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg) (c : Dev nD)

/-- Evaluates a stretch of host operations at a buffer: each operation's result at its own buffer is its function's value,
    and at any other buffer what was there. An operation of an outlined function moves its operands and result along the
    equation between a buffer's type and its value's type, which is the identity: those transports are removed. -/
macro "eval_stretch" : tactic => `(tactic| (
  dsimp only [W1, W3, W4, W5, W8, W9, W10, W12, hostOps0, hostOps1, hostOps1_1, hostOps1_2, hostOps3, hostOps3_1, hostOps3_2, hostOps4]
  after_results_simp
  try simp only [TRef.toBuf, TRef.ofBuf, cast_eq]))

/-! ## After the first stretch (the edge list cut into its two rows) -/
theorem w1_arg0 : W1 m ρ c (Proc.devRef .tc main_arg0) = m ((c : Thread nD τ).loc main_arg0) := by
  eval_stretch <;> rfl
theorem w1_arg2 : W1 m ρ c (Proc.devRef .tc main_arg2) = m ((c : Thread nD τ).loc main_arg2) := by
  eval_stretch <;> rfl
theorem w1_arg3 : W1 m ρ c (Proc.devRef .tc main_arg3) = m ((c : Thread nD τ).loc main_arg3) := by
  eval_stretch <;> rfl
theorem w1_arg4 : W1 m ρ c (Proc.devRef .tc main_arg4) = m ((c : Thread nD τ).loc main_arg4) := by
  eval_stretch <;> rfl
theorem w1_arg5 : W1 m ρ c (Proc.devRef .tc main_arg5) = m ((c : Thread nD τ).loc main_arg5) := by
  eval_stretch <;> rfl
theorem w1_arg6 : W1 m ρ c (Proc.devRef .tc main_arg6) = m ((c : Thread nD τ).loc main_arg6) := by
  eval_stretch <;> rfl
theorem w1_arg7 : W1 m ρ c (Proc.devRef .tc main_arg7) = m ((c : Thread nD τ).loc main_arg7) := by
  eval_stretch <;> rfl
theorem w1_arg8 : W1 m ρ c (Proc.devRef .tc main_arg8) = m ((c : Thread nD τ).loc main_arg8) := by
  eval_stretch <;> rfl

/-! ## After the first product launch -/
theorem w2_arg2 : W2 m ρ c (Proc.devRef .tc main_arg2) = m ((c : Thread nD τ).loc main_arg2) :=
  (W2_of_ne m ρ c main_arg2 (by decide)).trans (w1_arg2 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)
theorem w2_arg8 : W2 m ρ c (Proc.devRef .tc main_arg8) = m ((c : Thread nD τ).loc main_arg8) :=
  (W2_of_ne m ρ c main_arg8 (by decide)).trans (w1_arg8 m ρ c)
theorem w2_v1 : W2 m ρ c (Proc.devRef .tc main_v1) = W1 m ρ c (Proc.devRef .tc main_v1) :=
  W2_of_ne m ρ c main_v1 (by decide)
theorem w2_v3 : W2 m ρ c (Proc.devRef .tc main_v3) = W1 m ρ c (Proc.devRef .tc main_v3) :=
  W2_of_ne m ρ c main_v3 (by decide)

/-! ## After the first aggregation (three stretches) -/
theorem w5_arg2 : W5 m ρ c (Proc.devRef .tc main_arg2) = m ((c : Thread nD τ).loc main_arg2) := by
  refine Eq.trans ?_ (w2_arg2 m ρ c)
  eval_stretch
theorem w5_arg5 : W5 m ρ c (Proc.devRef .tc main_arg5) = m ((c : Thread nD τ).loc main_arg5) := by
  refine Eq.trans ?_ (w2_arg5 m ρ c)
  eval_stretch
theorem w5_arg6 : W5 m ρ c (Proc.devRef .tc main_arg6) = m ((c : Thread nD τ).loc main_arg6) := by
  refine Eq.trans ?_ (w2_arg6 m ρ c)
  eval_stretch
theorem w5_arg7 : W5 m ρ c (Proc.devRef .tc main_arg7) = m ((c : Thread nD τ).loc main_arg7) := by
  refine Eq.trans ?_ (w2_arg7 m ρ c)
  eval_stretch
theorem w5_arg8 : W5 m ρ c (Proc.devRef .tc main_arg8) = m ((c : Thread nD τ).loc main_arg8) := by
  refine Eq.trans ?_ (w2_arg8 m ρ c)
  eval_stretch
theorem w5_v1 : W5 m ρ c (Proc.devRef .tc main_v1) = W1 m ρ c (Proc.devRef .tc main_v1) := by
  refine Eq.trans ?_ (w2_v1 m ρ c)
  eval_stretch
theorem w5_v3 : W5 m ρ c (Proc.devRef .tc main_v3) = W1 m ρ c (Proc.devRef .tc main_v3) := by
  refine Eq.trans ?_ (w2_v3 m ρ c)
  eval_stretch

/-! ## After the first bias-and-clamp launch -/
theorem w6_arg2 : W6 m ρ c (Proc.devRef .tc main_arg2) = m ((c : Thread nD τ).loc main_arg2) :=
  (W6_of_ne m ρ c main_arg2 (by decide)).trans (w5_arg2 m ρ c)
theorem w6_arg5 : W6 m ρ c (Proc.devRef .tc main_arg5) = m ((c : Thread nD τ).loc main_arg5) :=
  (W6_of_ne m ρ c main_arg5 (by decide)).trans (w5_arg5 m ρ c)
theorem w6_arg6 : W6 m ρ c (Proc.devRef .tc main_arg6) = m ((c : Thread nD τ).loc main_arg6) :=
  (W6_of_ne m ρ c main_arg6 (by decide)).trans (w5_arg6 m ρ c)
theorem w6_arg7 : W6 m ρ c (Proc.devRef .tc main_arg7) = m ((c : Thread nD τ).loc main_arg7) :=
  (W6_of_ne m ρ c main_arg7 (by decide)).trans (w5_arg7 m ρ c)
theorem w6_arg8 : W6 m ρ c (Proc.devRef .tc main_arg8) = m ((c : Thread nD τ).loc main_arg8) :=
  (W6_of_ne m ρ c main_arg8 (by decide)).trans (w5_arg8 m ρ c)
theorem w6_v1 : W6 m ρ c (Proc.devRef .tc main_v1) = W1 m ρ c (Proc.devRef .tc main_v1) :=
  (W6_of_ne m ρ c main_v1 (by decide)).trans (w5_v1 m ρ c)
theorem w6_v3 : W6 m ρ c (Proc.devRef .tc main_v3) = W1 m ρ c (Proc.devRef .tc main_v3) :=
  (W6_of_ne m ρ c main_v3 (by decide)).trans (w5_v3 m ρ c)

/-! ## After the second product launch -/
theorem w7_arg2 : W7 m ρ c (Proc.devRef .tc main_arg2) = m ((c : Thread nD τ).loc main_arg2) :=
  (W7_of_ne m ρ c main_arg2 (by decide)).trans (w6_arg2 m ρ c)
theorem w7_arg6 : W7 m ρ c (Proc.devRef .tc main_arg6) = m ((c : Thread nD τ).loc main_arg6) :=
  (W7_of_ne m ρ c main_arg6 (by decide)).trans (w6_arg6 m ρ c)
theorem w7_arg7 : W7 m ρ c (Proc.devRef .tc main_arg7) = m ((c : Thread nD τ).loc main_arg7) :=
  (W7_of_ne m ρ c main_arg7 (by decide)).trans (w6_arg7 m ρ c)
theorem w7_arg8 : W7 m ρ c (Proc.devRef .tc main_arg8) = m ((c : Thread nD τ).loc main_arg8) :=
  (W7_of_ne m ρ c main_arg8 (by decide)).trans (w6_arg8 m ρ c)
theorem w7_v1 : W7 m ρ c (Proc.devRef .tc main_v1) = W1 m ρ c (Proc.devRef .tc main_v1) :=
  (W7_of_ne m ρ c main_v1 (by decide)).trans (w6_v1 m ρ c)
theorem w7_v3 : W7 m ρ c (Proc.devRef .tc main_v3) = W1 m ρ c (Proc.devRef .tc main_v3) :=
  (W7_of_ne m ρ c main_v3 (by decide)).trans (w6_v3 m ρ c)

/-! ## After the second aggregation (three stretches) -/
theorem w10_arg2 : W10 m ρ c (Proc.devRef .tc main_arg2) = m ((c : Thread nD τ).loc main_arg2) := by
  refine Eq.trans ?_ (w7_arg2 m ρ c)
  eval_stretch
theorem w10_arg7 : W10 m ρ c (Proc.devRef .tc main_arg7) = m ((c : Thread nD τ).loc main_arg7) := by
  refine Eq.trans ?_ (w7_arg7 m ρ c)
  eval_stretch
theorem w10_arg8 : W10 m ρ c (Proc.devRef .tc main_arg8) = m ((c : Thread nD τ).loc main_arg8) := by
  refine Eq.trans ?_ (w7_arg8 m ρ c)
  eval_stretch

/-! ## After the second bias-and-clamp launch -/
theorem w11_arg2 : W11 m ρ c (Proc.devRef .tc main_arg2) = m ((c : Thread nD τ).loc main_arg2) :=
  (W11_of_ne m ρ c main_arg2 (by decide)).trans (w10_arg2 m ρ c)
theorem w11_arg7 : W11 m ρ c (Proc.devRef .tc main_arg7) = m ((c : Thread nD τ).loc main_arg7) :=
  (W11_of_ne m ρ c main_arg7 (by decide)).trans (w10_arg7 m ρ c)
theorem w11_arg8 : W11 m ρ c (Proc.devRef .tc main_arg8) = m ((c : Thread nD τ).loc main_arg8) :=
  (W11_of_ne m ρ c main_arg8 (by decide)).trans (w10_arg8 m ρ c)

/-! ## After the pooling stretch -/
theorem w12_arg7 : W12 m ρ c (Proc.devRef .tc main_arg7) = m ((c : Thread nD τ).loc main_arg7) := by
  refine Eq.trans ?_ (w11_arg7 m ρ c)
  eval_stretch

end Cert.KernelIdeal.Carry

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.BodyValues.lean ====
/-
  What each kernel body computes on one block, entry by entry, on the extended reals.

  A change of float format is the identity there, and a matrix-unit product into a zero accumulator is the plain sum
  over the contracted axis; so

  * a product body holds, at row `p` and column `q` of its block, `Σ_k x[p,k] · w[k,q]` of the block's rows `x` and the
    whole weight matrix `w`;
  * a bias-and-clamp body holds `max (a[p,q] + b[0,q]) 0` of its block `a` and the one bias row `b`;
  * the read-out body holds `Σ_k x[g,k] · w[k,q] + b[0,q]`.
-/
import proofs.«118057_j2224793059951_1_alg».proof.Proof.Gen.KernelIdeal.Skeleton
import proofs.«118057_j2224793059951_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-- The first layer's product on a block of 5000 nodes. -/
theorem product1_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  exact PlainDot.matmul_zero_apply (M := 5000) (K := 128) (N := 128) none
    (truncf .bf16 x bitsLt_bf16_f32) (truncf .bf16 w bitsLt_bf16_f32) p q

/-- The second layer's product on a block of 5000 nodes. -/
theorem product2_apply (x : FVec Ideal S5000x128 .f32) (w : FVec Ideal S128x128 .f32) (p : Fin 5000) (q : Fin 128) :
    k2_pay1 (F := Ideal) x w (ix2 p q) = ∑ k : Fin 128, x (ix2 p k) * w (ix2 k q) := by
  unfold k2_pay1
  refine (PlainDot.matmul_zero_apply (M := 5000) (K := 128) (N := 128) none
    (truncf .bf16 (shapeCast S5000x128 x shapeCasts_S5000x128_S5000x128) bitsLt_bf16_f32) (truncf .bf16 w bitsLt_bf16_f32) p q).trans ?_
  rw [shapeCast_self]
  rfl

/-- The first layer's bias and clamp on a block of 5000 nodes. -/
theorem biasClamp1_apply (a : FVec Ideal S5000x128 .f32) (b : FVec Ideal S1x128 .f32) (p : Fin 5000) (q : Fin 128) :
    k1_pay1 (F := Ideal) a b (ix2 p q) = max (a (ix2 p q) + b (ix2 (0 : Fin 1) q)) (Ideal.ofBits .f32 0x00000000#32) := by
  unfold k1_pay1
  show maximumf (addf (shapeCast S5000x128 a shapeCasts_S5000x128_S5000x128)
      (broadcastTo S5000x128 (shapeCast S1x128 b shapeCasts_S1x128_S1x128) broadcasts_S1x128_S5000x128))
    (broadcast S5000x128 (Scalar.ofBits .f32 0x00000000#32)) (ix2 p q) = _
  rw [maximumf_apply, addf_apply, shapeCast_self, shapeCast_self, broadcastTo_1b_ab_apply]
  rfl

/-- The second layer's bias and clamp on a block of 5000 nodes. -/
theorem biasClamp2_apply (a : FVec Ideal S5000x128 .f32) (b : FVec Ideal S1x128 .f32) (p : Fin 5000) (q : Fin 128) :
    k3_pay1 (F := Ideal) a b (ix2 p q) = max (a (ix2 p q) + b (ix2 (0 : Fin 1) q)) (Ideal.ofBits .f32 0x00000000#32) := by
  unfold k3_pay1
  show maximumf (addf (shapeCast S5000x128 a shapeCasts_S5000x128_S5000x128)
      (broadcastTo S5000x128 (shapeCast S1x128 b shapeCasts_S1x128_S1x128) broadcasts_S1x128_S5000x128))
    (broadcast S5000x128 (Scalar.ofBits .f32 0x00000000#32)) (ix2 p q) = _
  rw [maximumf_apply, addf_apply, shapeCast_self, shapeCast_self, broadcastTo_1b_ab_apply]
  rfl

/-- The read-out layer on all 1024 graphs at once. -/
theorem readoutBody_apply (x : FVec Ideal S1024x128 .f32) (w : FVec Ideal S128x128 .f32) (b : FVec Ideal S1x128 .f32)
    (g : Fin 1024) (q : Fin 128) :
    k4_pay1 (F := Ideal) x w b (ix2 g q) = (∑ k : Fin 128, x (ix2 g k) * w (ix2 k q)) + b (ix2 (0 : Fin 1) q) := by
  unfold k4_pay1
  show addf (matmul dot_S1024x128_S128x128_S1024x128_1_0_0_1_n_n none
        (truncf .bf16 (shapeCast S1024x128 x shapeCasts_S1024x128_S1024x128) bitsLt_bf16_f32) (truncf .bf16 w bitsLt_bf16_f32)
        (constant S1024x128 .f32 0x00000000#32))
      (broadcastTo S1024x128 (shapeCast S1x128 b shapeCasts_S1x128_S1x128) broadcasts_S1x128_S1024x128) (ix2 g q) = _
  rw [addf_apply, shapeCast_self, shapeCast_self, broadcastTo_1b_ab_apply]
  refine congrArg (· + _) ?_
  exact PlainDot.matmul_zero_apply (M := 1024) (K := 128) (N := 128) none
    (truncf .bf16 x bitsLt_bf16_f32) (truncf .bf16 w bitsLt_bf16_f32) g q

end Cert.KernelIdeal.BodyValues

end
-- ==== Proof.LayerSpec.lean ====
/-
  The three dense layers of the network, each as ONE function of whole arrays, and each read at an index.

  * `nodeProduct X W` is the node-feature product `X · W`: row `p`, column `q` holds `Σ_k X[p,k] · W[k,q]`.
  * `biasRelu A b` adds the bias row `b` to every row of `A` and clamps below at zero:
    entry `(p, q)` is `max (A[p,q] + b[q]) 0`.
  * `readout P W b` is the last linear layer on the pooled graph features: `Σ_k P[g,k] · W[k,q] + b[q]`.

  They are spelt with the host operations themselves (a `dot_general`, two broadcasts and an add, a maximum against a
  broadcast zero), so that a program which applies those host operations to `X`, `W`, `b` computes them by definition;
  the index forms below are what a blocked kernel is compared against.
-/
import proofs.«118057_j2224793059951_1_alg».proof.Proof.Gen.ReferenceIdeal
import proofs.«118057_j2224793059951_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn

open Cert.ReferenceIdeal Cert.ReferenceIdeal.Gen Idealize.ShloMosaic Idealize.ShloMosaic.ValueIdx

/-- `X · W` for 50000 nodes with 128 features in and out. -/
def nodeProduct (X : FVec Ideal S50000x128 .f32) (W : FVec Ideal S128x128 .f32) : FVec Ideal S50000x128 .f32 :=
  Host.dotGeneral (F := Ideal) dot_S50000x128_S128x128_S50000x128_1_0_0_1_n_n none X W

/-- Entry `(p, q)` of `X · W` is the sum over the 128 shared features. -/
theorem nodeProduct_apply (X : FVec Ideal S50000x128 .f32) (W : FVec Ideal S128x128 .f32) (p : Fin 50000) (q : Fin 128) :
    nodeProduct X W (ix2 p q) = ∑ k : Fin 128, X (ix2 p k) * W (ix2 k q) := by
  unfold nodeProduct
  simp only [Host.dotGeneral]
  exact PlainDot.dotGeneral_apply (M := 50000) (K := 128) (N := 128) none _ X W p q

/-- The bias row `b` laid over all 50000 rows. -/
def biasRows (b : FVec Ideal S128 .f32) : FVec Ideal S50000x128 .f32 :=
  broadcastInDim S50000x128 ![0, 1] bcast_S1x128_S50000x128_0_1 (broadcastInDim S1x128 ![1] bcast_S128_S1x128_1 b)

/-- Every row of `biasRows b` is `b`. -/
theorem biasRows_apply (b : FVec Ideal S128 .f32) (p : Fin 50000) (q : Fin 128) : biasRows b (ix2 p q) = b (ix1 q) := by
  unfold biasRows
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- `max (A + b) 0`, the bias added to every row. -/
def biasRelu (A : FVec Ideal S50000x128 .f32) (b : FVec Ideal S128 .f32) : FVec Ideal S50000x128 .f32 :=
  maximumf (addf A (biasRows b))
    (broadcastInDim S50000x128 ![] bcast_S_S50000x128 (constant (F := Ideal) S_ .f32 0x00000000#32))

/-- Entry `(p, q)` of `biasRelu A b`. -/
theorem biasRelu_apply (A : FVec Ideal S50000x128 .f32) (b : FVec Ideal S128 .f32) (p : Fin 50000) (q : Fin 128) :
    biasRelu A b (ix2 p q) = max (A (ix2 p q) + b (ix1 q)) (Ideal.ofBits .f32 0x00000000#32) := by
  unfold biasRelu
  rw [maximumf_apply, addf_apply, biasRows_apply]
  refine congrArg (max _) ?_
  exact broadcastInDim_apply _ bcast_S_S50000x128 _ (ix2 p q) (fun a => a.elim0) (fun a => a.elim0)

/-- The bias row `b` laid over the 1024 graphs. -/
def biasGraphs (b : FVec Ideal S128 .f32) : FVec Ideal S1024x128 .f32 :=
  broadcastInDim S1024x128 ![0, 1] bcast_S1x128_S1024x128_0_1 (broadcastInDim S1x128 ![1] bcast_S128_S1x128_1 b)

theorem biasGraphs_apply (b : FVec Ideal S128 .f32) (g : Fin 1024) (q : Fin 128) : biasGraphs b (ix2 g q) = b (ix1 q) := by
  unfold biasGraphs
  refine (broadcastInDim_apply _ bcast_S1x128_S1024x128_0_1 _ (ix2 g q) (ix2 (0 : Fin 1) q) (fun a => match a with
    | ⟨0, _⟩ => by show 0 = if (1 : Nat) = 1 then 0 else g.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The last linear layer on the pooled features: `P · W + b`. -/
def readout (P : FVec Ideal S1024x128 .f32) (W : FVec Ideal S128x128 .f32) (b : FVec Ideal S128 .f32) : FVec Ideal S1024x128 .f32 :=
  addf (Host.dotGeneral (F := Ideal) dot_S1024x128_S128x128_S1024x128_1_0_0_1_n_n none P W) (biasGraphs b)

/-- Entry `(g, q)` of `readout P W b`. -/
theorem readout_apply (P : FVec Ideal S1024x128 .f32) (W : FVec Ideal S128x128 .f32) (b : FVec Ideal S128 .f32) (g : Fin 1024) (q : Fin 128) :
    readout P W b (ix2 g q) = (∑ k : Fin 128, P (ix2 g k) * W (ix2 k q)) + b (ix1 q) := by
  unfold readout
  rw [addf_apply, biasGraphs_apply]
  refine congrArg (· + _) ?_
  simp only [Host.dotGeneral]
  exact PlainDot.dotGeneral_apply (M := 1024) (K := 128) (N := 128) none _ P W g q

end Cert.Gcn

end
-- ==== Proof.Product1.lean ====
/-
  The first layer's product launch computes `X · W₁` as one whole array.

  The launch has ten grid points; point `t` stages rows `5000·t … 5000·t + 4999` of the node features together with the
  whole weight matrix, and writes back the same rows of the product. So what point `t` writes back is block `t` of the
  ONE array `X · W`, and since the ten row blocks cover all 50000 rows the output array ends holding `X · W`.
-/
import proofs.«118057_j2224793059951_1_alg».proof.Proof.Gen.KernelIdeal.Frame
import proofs.«118057_j2224793059951_1_alg».proof.Proof.BodyValues
import proofs.«118057_j2224793059951_1_alg».proof.Proof.LayerSpec
import Idealize.ShloMosaic.Lib.Pipeline.Value

set_option maxRecDepth 16384

noncomputable section

open scoped BigOperators

namespace Cert.KernelIdeal.Product1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- There are ten grid points. -/
theorem point_lt (t : Fin cfg0.N) : t.val < 10 := by
  have h : t.val < grid0.N := t.isLt
  rw [N_0] at h
  exact h

/-- The printed index maps, decided over the grid: the feature rows and the output move together, block `t` at point `t`;
    the weights are always their one whole block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `5000·t + p` of the whole array, for row `p` of block `t`. -/
def row (t : Fin cfg0.N) (p : Fin 5000) : Fin 50000 :=
  ⟨t.val * 5000 + p.val, by have := point_lt t; have := p.isLt; omega⟩

/-- The feature block at point `t` is rows `5000·t …` of the feature array as the launch finds it. -/
theorem read_features (c : Dev nD) (t : Fin cfg0.N) (p : Fin 5000) (k : Fin 128) :
    iblk0 V c 0 t (ix2 p k) = V c main_arg0 (ix2 (row t p) k) := by
  obtain ⟨e0, e1, e2, e3, e4, e5⟩ := index_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block at every point is the whole weight matrix. -/
theorem read_weights (c : Dev nD) (t : Fin cfg0.N) (k q : Fin 128) :
    iblk0 V c 1 t (ix2 k q) = V c main_arg3 (ix2 k q) := by
  obtain ⟨e0, e1, e2, e3, e4, e5⟩ := index_facts t
  show V c main_arg3 (((cfg0.win 1).blk t).view.emb (ix2 k q)) = _
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- An entry of the output block at point `t` sits at row `5000·t + p` of the output array. -/
theorem out_index (t : Fin cfg0.N) (p : Fin 5000) (q : Fin 128) :
    ((cfg0.win 2).blk t).view.emb (ix2 p q) = ix2 (row t p) q := by
  obtain ⟨e0, e1, e2, e3, e4, e5⟩ := index_facts t
  refine funext fun a => Fin.ext ?_
  match a with
  | ⟨0, _⟩ => show win0_2.index t (0 : Fin 2) * 5000 + 1 * p.val = t.val * 5000 + p.val; omega
  | ⟨1, _⟩ => show win0_2.index t (1 : Fin 2) * 128 + 1 * q.val = q.val; omega

/-- WHAT POINT `t` WRITES BACK is block `t` of `X · W`. -/
theorem flushed_eq (c : Dev nD) (t : Fin cfg0.N) :
    (dat0 V c).flushed 2 t
      = ((cfg0.win 2).blk t).view.read (Elt Ideal) (Cert.Gcn.nodeProduct (V c main_arg0) (V c main_arg3)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x128) offsets_zero]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Gcn.nodeProduct (V c main_arg0) (V c main_arg3) (((cfg0.win 2).blk t).view.emb (ix2 p q))
  rw [out_index, Cert.Gcn.nodeProduct_apply]
  refine (BodyValues.product1_apply (iblk0 V c 0 t) (iblk0 V c 1 t) p q).trans ?_
  refine Finset.sum_congr rfl fun k _ => ?_
  rw [read_features, read_weights]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Row `r` is covered by point `r / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < grid0.N := by rw [N_0]; omega
  obtain ⟨e0, e1, e2, e3, e4, e5⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    have e4' : win0_2.index ⟨(i 0).val / 5000, ht⟩ (0 : Fin 2) = (i 0).val / 5000 := e4
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- THE OUTPUT ARRAY after the launch is `X · W` of the feature and weight arrays as the launch finds them. -/
theorem final (c : Dev nD) :
    (dat0 V c).arrAt 2 cfg0.N = Cert.Gcn.nodeProduct (V c main_arg0) (V c main_arg3) :=
  (dat0 V c).arrAt_eq_of_cover 2 _ (fun t _ => flushed_eq V c t) covered

end Cert.KernelIdeal.Product1

end
-- ==== Proof.Product2.lean ====
/-
  The second layer's product launch computes `H · W₂` as one whole array.

  The launch has ten grid points; point `t` stages rows `5000·t … 5000·t + 4999` of the node features together with the
  whole weight matrix, and writes back the same rows of the product. So what point `t` writes back is block `t` of the
  ONE array `X · W`, and since the ten row blocks cover all 50000 rows the output array ends holding `X · W`.
-/
import proofs.«118057_j2224793059951_1_alg».proof.Proof.Gen.KernelIdeal.Frame
import proofs.«118057_j2224793059951_1_alg».proof.Proof.BodyValues
import proofs.«118057_j2224793059951_1_alg».proof.Proof.LayerSpec
import Idealize.ShloMosaic.Lib.Pipeline.Value

set_option maxRecDepth 16384

noncomputable section

open scoped BigOperators

namespace Cert.KernelIdeal.Product2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- There are ten grid points. -/
theorem point_lt (t : Fin cfg2.N) : t.val < 10 := by
  have h : t.val < grid2.N := t.isLt
  rw [N_2] at h
  exact h

/-- The printed index maps, decided over the grid: the feature rows and the output move together, block `t` at point `t`;
    the weights are always their one whole block. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `5000·t + p` of the whole array, for row `p` of block `t`. -/
def row (t : Fin cfg2.N) (p : Fin 5000) : Fin 50000 :=
  ⟨t.val * 5000 + p.val, by have := point_lt t; have := p.isLt; omega⟩

/-- The feature block at point `t` is rows `5000·t …` of the feature array as the launch finds it. -/
theorem read_features (c : Dev nD) (t : Fin cfg2.N) (p : Fin 5000) (k : Fin 128) :
    iblk2 V c 0 t (ix2 p k) = V c main_v47 (ix2 (row t p) k) := by
  obtain ⟨e0, e1, e2, e3, e4, e5⟩ := index_facts t
  show V c main_v47 (((cfg2.win 0).blk t).view.emb (ix2 p k)) = _
  refine congrArg (V c main_v47) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The weight block at every point is the whole weight matrix. -/
theorem read_weights (c : Dev nD) (t : Fin cfg2.N) (k q : Fin 128) :
    iblk2 V c 1 t (ix2 k q) = V c main_arg5 (ix2 k q) := by
  obtain ⟨e0, e1, e2, e3, e4, e5⟩ := index_facts t
  show V c main_arg5 (((cfg2.win 1).blk t).view.emb (ix2 k q)) = _
  refine congrArg (V c main_arg5) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- An entry of the output block at point `t` sits at row `5000·t + p` of the output array. -/
theorem out_index (t : Fin cfg2.N) (p : Fin 5000) (q : Fin 128) :
    ((cfg2.win 2).blk t).view.emb (ix2 p q) = ix2 (row t p) q := by
  obtain ⟨e0, e1, e2, e3, e4, e5⟩ := index_facts t
  refine funext fun a => Fin.ext ?_
  match a with
  | ⟨0, _⟩ => show win2_2.index t (0 : Fin 2) * 5000 + 1 * p.val = t.val * 5000 + p.val; omega
  | ⟨1, _⟩ => show win2_2.index t (1 : Fin 2) * 128 + 1 * q.val = q.val; omega

/-- WHAT POINT `t` WRITES BACK is block `t` of `X · W`. -/
theorem flushed_eq (c : Dev nD) (t : Fin cfg2.N) :
    (dat2 V c).flushed 2 t
      = ((cfg2.win 2).blk t).view.read (Elt Ideal) (Cert.Gcn.nodeProduct (V c main_v47) (V c main_arg5)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x128) offsets_zero]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Gcn.nodeProduct (V c main_v47) (V c main_arg5) (((cfg2.win 2).blk t).view.emb (ix2 p q))
  rw [out_index, Cert.Gcn.nodeProduct_apply]
  refine (BodyValues.product2_apply (iblk2 V c 0 t) (iblk2 V c 1 t) p q).trans ?_
  refine Finset.sum_congr rfl fun k _ => ?_
  rw [read_features, read_weights]

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row `r` is covered by point `r / 5000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < grid2.N := by rw [N_2]; omega
  obtain ⟨e0, e1, e2, e3, e4, e5⟩ := index_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- THE OUTPUT ARRAY after the launch is `X · W` of the feature and weight arrays as the launch finds them. -/
theorem final (c : Dev nD) :
    (dat2 V c).arrAt 2 cfg2.N = Cert.Gcn.nodeProduct (V c main_v47) (V c main_arg5) :=
  (dat2 V c).arrAt_eq_of_cover 2 _ (fun t _ => flushed_eq V c t) covered

end Cert.KernelIdeal.Product2

end
-- ==== Proof.RowForms.lean ====
/-
  The bias layers as a kernel sees them: the bias staged as a one-row matrix.

  A kernel stages the 128 biases as a `[1, 128]` row `B` and reads `B[0, q]`; the host lays the 128-vector `b` over the rows by
  two broadcasts. When `B` is `b` reshaped to one row, the two are the same function.
-/
import proofs.«118057_j2224793059951_1_alg».proof.Proof.LayerSpec

noncomputable section

open scoped BigOperators

namespace Cert.Gcn

open Cert.ReferenceIdeal Idealize.ShloMosaic Idealize.ShloMosaic.ValueIdx

/-- `max (A[p,q] + B[0,q]) 0`. -/
def biasReluRow (A : FVec Ideal S50000x128 .f32) (B : FVec Ideal S1x128 .f32) : FVec Ideal S50000x128 .f32 :=
  fun i => max (A i + B (ix2 (0 : Fin 1) (⟨(i 1).val, (i 1).isLt⟩ : Fin 128))) (Ideal.ofBits .f32 0x00000000#32)

theorem biasReluRow_apply (A : FVec Ideal S50000x128 .f32) (B : FVec Ideal S1x128 .f32) (p : Fin 50000) (q : Fin 128) :
    biasReluRow A B (ix2 p q) = max (A (ix2 p q) + B (ix2 (0 : Fin 1) q)) (Ideal.ofBits .f32 0x00000000#32) := rfl

/-- On the bias vector reshaped to one row, the row form is the host's `max (A + b) 0`. -/
theorem biasReluRow_reshape (A : FVec Ideal S50000x128 .f32) (b : FVec Ideal S128 .f32) (h : S128.ShapeCasts S1x128) :
    biasReluRow A (shapeCast S1x128 b h) = biasRelu A b := by
  funext i
  obtain ⟨p, q, rfl⟩ : ∃ (p : Fin 50000) (q : Fin 128), i = ix2 p q := ⟨i 0, i 1, eq_ix2 i⟩
  rw [biasRelu_apply, biasReluRow_apply, shapeCast_a_1a_apply]

/-- `Σ_k P[g,k] · W[k,q] + B[0,q]`. -/
def readoutRow (P : FVec Ideal S1024x128 .f32) (W : FVec Ideal S128x128 .f32) (B : FVec Ideal S1x128 .f32) : FVec Ideal S1024x128 .f32 :=
  fun i => (∑ k : Fin 128, P (ix2 (⟨(i 0).val, (i 0).isLt⟩ : Fin 1024) k) * W (ix2 k (⟨(i 1).val, (i 1).isLt⟩ : Fin 128)))
    + B (ix2 (0 : Fin 1) (⟨(i 1).val, (i 1).isLt⟩ : Fin 128))

theorem readoutRow_apply (P : FVec Ideal S1024x128 .f32) (W : FVec Ideal S128x128 .f32) (B : FVec Ideal S1x128 .f32)
    (g : Fin 1024) (q : Fin 128) :
    readoutRow P W B (ix2 g q) = (∑ k : Fin 128, P (ix2 g k) * W (ix2 k q)) + B (ix2 (0 : Fin 1) q) := rfl

/-- On the bias vector reshaped to one row, the row form is the host's `P · W + b`. -/
theorem readoutRow_reshape (P : FVec Ideal S1024x128 .f32) (W : FVec Ideal S128x128 .f32) (b : FVec Ideal S128 .f32)
    (h : S128.ShapeCasts S1x128) : readoutRow P W (shapeCast S1x128 b h) = readout P W b := by
  funext i
  obtain ⟨g, q, rfl⟩ : ∃ (g : Fin 1024) (q : Fin 128), i = ix2 g q := ⟨i 0, i 1, eq_ix2 i⟩
  rw [readout_apply, readoutRow_apply, shapeCast_a_1a_apply]

end Cert.Gcn

end
-- ==== Proof.BiasClamp1.lean ====
/-
  The first layer's bias-and-clamp launch computes `max (A + b₁) 0` as one whole array.

  Ten grid points; point `t` stages rows `5000·t … 5000·t + 4999` of the aggregated features together with the one bias
  row, and writes back the same rows with the bias added and clamped below at zero. So what point `t` writes back is
  block `t` of the ONE array `max (A + bias) 0`, and the ten row blocks cover all 50000 rows.
-/
import proofs.«118057_j2224793059951_1_alg».proof.Proof.Gen.KernelIdeal.Frame
import proofs.«118057_j2224793059951_1_alg».proof.Proof.BodyValues
import proofs.«118057_j2224793059951_1_alg».proof.Proof.RowForms
import Idealize.ShloMosaic.Lib.Pipeline.Value

set_option maxRecDepth 16384

noncomputable section

namespace Cert.KernelIdeal.BiasClamp1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- There are ten grid points. -/
theorem point_lt (t : Fin cfg1.N) : t.val < 10 := by
  have h : t.val < grid1.N := t.isLt
  rw [N_1] at h
  exact h

/-- The printed index maps, decided over the grid: the input rows and the output move together, block `t` at point `t`;
    the bias row is always its one whole block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `5000·t + p` of the whole array, for row `p` of block `t`. -/
def row (t : Fin cfg1.N) (p : Fin 5000) : Fin 50000 :=
  ⟨t.val * 5000 + p.val, by have := point_lt t; have := p.isLt; omega⟩

/-- The input block at point `t` is rows `5000·t …` of the input array as the launch finds it. -/
theorem read_rows (c : Dev nD) (t : Fin cfg1.N) (p : Fin 5000) (q : Fin 128) :
    iblk1 V c 0 t (ix2 p q) = V c main_v45 (ix2 (row t p) q) := by
  obtain ⟨e0, e1, e2, e3, e4, e5⟩ := index_facts t
  show V c main_v45 (((cfg1.win 0).blk t).view.emb (ix2 p q)) = _
  refine congrArg (V c main_v45) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The bias block at every point is the whole bias row. -/
theorem read_bias (c : Dev nD) (t : Fin cfg1.N) (q : Fin 128) :
    iblk1 V c 1 t (ix2 (0 : Fin 1) q) = V c main_v46 (ix2 (0 : Fin 1) q) := by
  obtain ⟨e0, e1, e2, e3, e4, e5⟩ := index_facts t
  show V c main_v46 (((cfg1.win 1).blk t).view.emb (ix2 (0 : Fin 1) q)) = _
  refine congrArg (V c main_v46) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- An entry of the output block at point `t` sits at row `5000·t + p` of the output array. -/
theorem out_index (t : Fin cfg1.N) (p : Fin 5000) (q : Fin 128) :
    ((cfg1.win 2).blk t).view.emb (ix2 p q) = ix2 (row t p) q := by
  obtain ⟨e0, e1, e2, e3, e4, e5⟩ := index_facts t
  refine funext fun a => Fin.ext ?_
  match a with
  | ⟨0, _⟩ => show win1_2.index t (0 : Fin 2) * 5000 + 1 * p.val = t.val * 5000 + p.val; omega
  | ⟨1, _⟩ => show win1_2.index t (1 : Fin 2) * 128 + 1 * q.val = q.val; omega

/-- WHAT POINT `t` WRITES BACK is block `t` of `max (A + bias) 0`. -/
theorem flushed_eq (c : Dev nD) (t : Fin cfg1.N) :
    (dat1 V c).flushed 2 t
      = ((cfg1.win 2).blk t).view.read (Elt Ideal) (Cert.Gcn.biasReluRow (V c main_v45) (V c main_v46)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Gcn.biasReluRow (V c main_v45) (V c main_v46) (((cfg1.win 2).blk t).view.emb (ix2 p q))
  rw [out_index, Cert.Gcn.biasReluRow_apply]
  refine (BodyValues.biasClamp1_apply (iblk1 V c 0 t) (iblk1 V c 1 t) p q).trans ?_
  rw [read_rows, read_bias]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `r` is covered by point `r / 5000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < grid1.N := by rw [N_1]; omega
  obtain ⟨e0, e1, e2, e3, e4, e5⟩ := index_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e4' : win1_2.index ⟨(i 0).val / 5000, ht⟩ (0 : Fin 2) = (i 0).val / 5000 := e4
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- THE OUTPUT ARRAY after the launch is `max (A + bias) 0` of the input array and the bias row as the launch finds them. -/
theorem final (c : Dev nD) :
    (dat1 V c).arrAt 2 cfg1.N = Cert.Gcn.biasReluRow (V c main_v45) (V c main_v46) :=
  (dat1 V c).arrAt_eq_of_cover 2 _ (fun t _ => flushed_eq V c t) covered

end Cert.KernelIdeal.BiasClamp1

end
-- ==== Proof.BiasClamp2.lean ====
/-
  The second layer's bias-and-clamp launch computes `max (A + b₂) 0` as one whole array.

  Ten grid points; point `t` stages rows `5000·t … 5000·t + 4999` of the aggregated features together with the one bias
  row, and writes back the same rows with the bias added and clamped below at zero. So what point `t` writes back is
  block `t` of the ONE array `max (A + bias) 0`, and the ten row blocks cover all 50000 rows.
-/
import proofs.«118057_j2224793059951_1_alg».proof.Proof.Gen.KernelIdeal.Frame
import proofs.«118057_j2224793059951_1_alg».proof.Proof.BodyValues
import proofs.«118057_j2224793059951_1_alg».proof.Proof.RowForms
import Idealize.ShloMosaic.Lib.Pipeline.Value

set_option maxRecDepth 16384

noncomputable section

namespace Cert.KernelIdeal.BiasClamp2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- There are ten grid points. -/
theorem point_lt (t : Fin cfg3.N) : t.val < 10 := by
  have h : t.val < grid3.N := t.isLt
  rw [N_3] at h
  exact h

/-- The printed index maps, decided over the grid: the input rows and the output move together, block `t` at point `t`;
    the bias row is always its one whole block. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `5000·t + p` of the whole array, for row `p` of block `t`. -/
def row (t : Fin cfg3.N) (p : Fin 5000) : Fin 50000 :=
  ⟨t.val * 5000 + p.val, by have := point_lt t; have := p.isLt; omega⟩

/-- The input block at point `t` is rows `5000·t …` of the input array as the launch finds it. -/
theorem read_rows (c : Dev nD) (t : Fin cfg3.N) (p : Fin 5000) (q : Fin 128) :
    iblk3 V c 0 t (ix2 p q) = V c main_v89 (ix2 (row t p) q) := by
  obtain ⟨e0, e1, e2, e3, e4, e5⟩ := index_facts t
  show V c main_v89 (((cfg3.win 0).blk t).view.emb (ix2 p q)) = _
  refine congrArg (V c main_v89) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- The bias block at every point is the whole bias row. -/
theorem read_bias (c : Dev nD) (t : Fin cfg3.N) (q : Fin 128) :
    iblk3 V c 1 t (ix2 (0 : Fin 1) q) = V c main_v90 (ix2 (0 : Fin 1) q) := by
  obtain ⟨e0, e1, e2, e3, e4, e5⟩ := index_facts t
  show V c main_v90 (((cfg3.win 1).blk t).view.emb (ix2 (0 : Fin 1) q)) = _
  refine congrArg (V c main_v90) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- An entry of the output block at point `t` sits at row `5000·t + p` of the output array. -/
theorem out_index (t : Fin cfg3.N) (p : Fin 5000) (q : Fin 128) :
    ((cfg3.win 2).blk t).view.emb (ix2 p q) = ix2 (row t p) q := by
  obtain ⟨e0, e1, e2, e3, e4, e5⟩ := index_facts t
  refine funext fun a => Fin.ext ?_
  match a with
  | ⟨0, _⟩ => show win3_2.index t (0 : Fin 2) * 5000 + 1 * p.val = t.val * 5000 + p.val; omega
  | ⟨1, _⟩ => show win3_2.index t (1 : Fin 2) * 128 + 1 * q.val = q.val; omega

/-- WHAT POINT `t` WRITES BACK is block `t` of `max (A + bias) 0`. -/
theorem flushed_eq (c : Dev nD) (t : Fin cfg3.N) :
    (dat3 V c).flushed 2 t
      = ((cfg3.win 2).blk t).view.read (Elt Ideal) (Cert.Gcn.biasReluRow (V c main_v89) (V c main_v90)) := by
  show (cfg3.win 2).cut (grid3.coords t) ((dat3 V c).after 2 t) = _
  rw [after3_2]
  unfold out3_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.Gcn.biasReluRow (V c main_v89) (V c main_v90) (((cfg3.win 2).blk t).view.emb (ix2 p q))
  rw [out_index, Cert.Gcn.biasReluRow_apply]
  refine (BodyValues.biasClamp2_apply (iblk3 V c 0 t) (iblk3 V c 1 t) p q).trans ?_
  rw [read_rows, read_bias]

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v91).slice (win3_2.rect t)).set ↔ _
  rw [View.set_slice_whole, Rect.mem_set_unit]
  exact Iff.rfl

/-- Row `r` is covered by point `r / 5000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have ht : (i 0).val / 5000 < grid3.N := by rw [N_3]; omega
  obtain ⟨e0, e1, e2, e3, e4, e5⟩ := index_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    have e4' : win3_2.index ⟨(i 0).val / 5000, ht⟩ (0 : Fin 2) = (i 0).val / 5000 := e4
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- THE OUTPUT ARRAY after the launch is `max (A + bias) 0` of the input array and the bias row as the launch finds them. -/
theorem final (c : Dev nD) :
    (dat3 V c).arrAt 2 cfg3.N = Cert.Gcn.biasReluRow (V c main_v89) (V c main_v90) :=
  (dat3 V c).arrAt_eq_of_cover 2 _ (fun t _ => flushed_eq V c t) covered

end Cert.KernelIdeal.BiasClamp2

end
-- ==== Proof.Readout.lean ====
/-
  The read-out launch computes `P · W_f + b_f` as one whole array.

  The launch has a single grid point, and every window's one block is its whole array: the pooled features `P` (1024 graphs
  by 128), the weight matrix, the one bias row, and the 1024 by 128 result. So the one point writes back the whole of
  `Σ_k P[g,k] · W[k,q] + bias[0,q]`.
-/
import proofs.«118057_j2224793059951_1_alg».proof.Proof.Gen.KernelIdeal.Frame
import proofs.«118057_j2224793059951_1_alg».proof.Proof.BodyValues
import proofs.«118057_j2224793059951_1_alg».proof.Proof.RowForms
import Idealize.ShloMosaic.Lib.Pipeline.Value

set_option maxRecDepth 16384

noncomputable section

open scoped BigOperators

namespace Cert.KernelIdeal.Readout

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps at the one grid point: every window's block is block `(0, 0)`. -/
theorem index_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled-feature block is the whole pooled array as the launch finds it. -/
theorem read_pooled (c : Dev nD) (t : Fin cfg4.N) (g : Fin 1024) (k : Fin 128) :
    iblk4 V c 0 t (ix2 g k) = V c main_v103 (ix2 g k) := by
  obtain ⟨e0, e1, e2, e3, e4, e5, e6, e7⟩ := index_facts t
  show V c main_v103 (((cfg4.win 0).blk t).view.emb (ix2 g k)) = _
  refine congrArg (V c main_v103) (funext fun a => Fin.ext ?_)
  match a with
  | ⟨0, _⟩ => show win4_0.index t (0 : Fin 2) * 1024 + 1 * g.val = g.val; omega
  | ⟨1, _⟩ => show win4_0.index t (1 : Fin 2) * 128 + 1 * k.val = k.val; omega

/-- The weight block is the whole weight matrix. -/
theorem read_weights (c : Dev nD) (t : Fin cfg4.N) (k q : Fin 128) :
    iblk4 V c 1 t (ix2 k q) = V c main_arg7 (ix2 k q) := by
  obtain ⟨e0, e1, e2, e3, e4, e5, e6, e7⟩ := index_facts t
  show V c main_arg7 (((cfg4.win 1).blk t).view.emb (ix2 k q)) = _
  refine congrArg (V c main_arg7) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- The bias block is the whole bias row. -/
theorem read_bias (c : Dev nD) (t : Fin cfg4.N) (q : Fin 128) :
    iblk4 V c 2 t (ix2 (0 : Fin 1) q) = V c main_v104 (ix2 (0 : Fin 1) q) := by
  obtain ⟨e0, e1, e2, e3, e4, e5, e6, e7⟩ := index_facts t
  show V c main_v104 (((cfg4.win 2).blk t).view.emb (ix2 (0 : Fin 1) q)) = _
  refine congrArg (V c main_v104) (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

/-- An entry of the output block sits at the same place of the output array. -/
theorem out_index (t : Fin cfg4.N) (g : Fin 1024) (q : Fin 128) :
    ((cfg4.win 3).blk t).view.emb (ix2 g q) = ix2 g q := by
  obtain ⟨e0, e1, e2, e3, e4, e5, e6, e7⟩ := index_facts t
  refine funext fun a => Fin.ext ?_
  match a with
  | ⟨0, _⟩ => show win4_3.index t (0 : Fin 2) * 1024 + 1 * g.val = g.val; omega
  | ⟨1, _⟩ => show win4_3.index t (1 : Fin 2) * 128 + 1 * q.val = q.val; omega

/-- WHAT THE ONE POINT WRITES BACK is the whole of `P · W + bias`. -/
theorem flushed_eq (c : Dev nD) (t : Fin cfg4.N) :
    (dat4 V c).flushed 3 t
      = ((cfg4.win 3).blk t).view.read (Elt Ideal) (Cert.Gcn.readoutRow (V c main_v103) (V c main_arg7) (V c main_v104)) := by
  show (cfg4.win 3).cut (grid4.coords t) ((dat4 V c).after 3 t) = _
  rw [after4_3]
  unfold out4_3
  rw [View.canon_unit_zero offsets_zero]
  simp only [View.ld_unit_zero (S := S1024x128) offsets_zero, View.ld_unit_zero (S := S128x128) offsets_zero,
    View.ld_unit_zero (S := S1x128) offsets_zero]
  funext j
  obtain ⟨g, q, rfl⟩ : ∃ (g : Fin 1024) (q : Fin 128), j = ix2 g q := ⟨j 0, j 1, eq_ix2 j⟩
  show k4_pay1 (iblk4 V c 0 t) (iblk4 V c 1 t) (iblk4 V c 2 t) (ix2 g q)
    = Cert.Gcn.readoutRow (V c main_v103) (V c main_arg7) (V c main_v104) (((cfg4.win 3).blk t).view.emb (ix2 g q))
  rw [out_index, Cert.Gcn.readoutRow_apply]
  refine (BodyValues.readoutBody_apply (iblk4 V c 0 t) (iblk4 V c 1 t) (iblk4 V c 2 t) g q).trans ?_
  rw [read_bias]
  refine congrArg (· + _) (Finset.sum_congr rfl fun k _ => ?_)
  rw [read_pooled, read_weights]

/-- An index of the output array is in the point's block iff each coordinate is in the block's range on its axis. -/
theorem mem_blk (t : Fin cfg4.N) (i : S1024x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v105).slice (win4_3.rect t)).set ↔ _
  rw [View.set_slice_whole, Rect.mem_set_unit]
  exact Iff.rfl

/-- Every index is covered by the one point. -/
theorem covered (i : S1024x128.Idx) :
    ∃ t : Fin cfg4.N, (cfg4.win 3).flush t = true ∧ i ∈ ((cfg4.win 3).blk t).view.set := by
  have hi0 : (i 0).val < 1024 := (i 0).isLt
  have hi1 : (i 1).val < 128 := (i 1).isLt
  obtain ⟨e0, e1, e2, e3, e4, e5, e6, e7⟩ := index_facts t4_0
  refine ⟨t4_0, flush4_3 _, ?_⟩
  rw [mem_blk]
  intro a
  match a with
  | ⟨0, _⟩ =>
    show win4_3.index t4_0 (0 : Fin 2) * 1024 ≤ (i 0).val ∧ (i 0).val < win4_3.index t4_0 (0 : Fin 2) * 1024 + 1024
    omega
  | ⟨1, _⟩ =>
    show win4_3.index t4_0 (1 : Fin 2) * 128 ≤ (i 1).val ∧ (i 1).val < win4_3.index t4_0 (1 : Fin 2) * 128 + 128
    omega

/-- THE OUTPUT ARRAY after the launch is `P · W + bias` of the three input arrays as the launch finds them. -/
theorem final (c : Dev nD) :
    (dat4 V c).arrAt 3 cfg4.N = Cert.Gcn.readoutRow (V c main_v103) (V c main_arg7) (V c main_v104) :=
  (dat4 V c).arrAt_eq_of_cover 3 _ (fun t _ => flushed_eq V c t) covered

end Cert.KernelIdeal.Readout

end
-- ==== Proof.LibConcatenate.lean ====
/-
  Rewriting inside a two-operand concatenation.

  `concatenate t a xs h` carries a proof `h` that the operands' SHAPES concatenate to `t` along axis `a`; the proof's
  type mentions the operand list, so a rewriting tactic cannot replace an operand's VALUE inside the list by itself. For two
  operands of fixed shapes the proof's type does not depend on the values at all, which is this congruence: equal
  operand values give equal concatenations, under the same proof.
-/
import Idealize.ShloMosaic.PureOps.Ideal.Laws
import Idealize.ShloMosaic.Lib.ValueIdx

noncomputable section

namespace Idealize.ShloMosaic

/-- A concatenation of two arrays depends on them only through their values: congruence in both operands, the
    shape proof unchanged (as a local congruence rule it lets a simplification rewrite the operands). -/
theorem concatenate_pair_congr {α : Type} (t : Shape) (a : Fin t.rank) (s1 s2 : Shape)
    {x x' : s1.Idx → α} {y y' : s2.Idx → α} (h : Shape.Concatenates [s1, s2] t a) (hx : x = x') (hy : y = y') :
    concatenate t a [⟨s1, x⟩, ⟨s2, y⟩] h = concatenate t a [⟨s1, x'⟩, ⟨s2, y'⟩] h := by
  subst hx hy; rfl

end Idealize.ShloMosaic

end
-- ==== Proof.Chain.lean ====
/-
  The idealized kernel's buffers, boundary by boundary, are the reference's stages of the same arguments.

  Walking the program forward: the first stretch cuts the edge list into its two rows exactly as the reference does; the
  first launch leaves `X · W₁`; the next three stretches are the reference's own aggregation (degree count, symmetric
  normalisation, gather, scale, scatter-add) applied to that product — the same host operations, never opened here —;
  the bias-and-clamp launch leaves `max (· + b₁) 0`; and so on through the second layer, the mean pooling over the graph
  ids and the read-out launch. At each boundary the live buffer equals the reference's stage of the nine arguments.
-/
import proofs.«118057_j2224793059951_1_alg».proof.Proof.Carry
import proofs.«118057_j2224793059951_1_alg».proof.Proof.Product1
import proofs.«118057_j2224793059951_1_alg».proof.Proof.Product2
import proofs.«118057_j2224793059951_1_alg».proof.Proof.BiasClamp1
import proofs.«118057_j2224793059951_1_alg».proof.Proof.BiasClamp2
import proofs.«118057_j2224793059951_1_alg».proof.Proof.Readout
import proofs.«118057_j2224793059951_1_alg».proof.Proof.RefRead
import proofs.«118057_j2224793059951_1_alg».proof.Proof.LibConcatenate

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (ρ : Dev nD → PrngReg) (c : Dev nD)

-- evaluating a stretch has to reach the operands of the concatenations that append the self loops to the edge vectors
attribute [local congr] concatenate_pair_congr

/-! ## The edge list's two rows -/

/-- The source row of the edge list. -/
theorem edge_sources : W1 m ρ c (Proc.devRef .tc main_v1) = val_main_v1 (F := Ideal) (m ((c : Thread nD τ).loc main_arg1)) := by
  eval_stretch <;> rfl

/-- The target row of the edge list. -/
theorem edge_targets : W1 m ρ c (Proc.devRef .tc main_v3) = val_main_v3 (F := Ideal) (m ((c : Thread nD τ).loc main_arg1)) := by
  eval_stretch <;> rfl

/-! ## The first layer -/

/-- The first launch leaves `X · W₁`. -/
theorem product1 : W2 m ρ c (Proc.devRef .tc main_v4) = val_main_v4 (F := Ideal) (m ((c : Thread nD τ).loc main_arg0)) (m ((c : Thread nD τ).loc main_arg3)) := by
  refine (W2_arr m ρ c 2).trans ?_
  rw [Product1.final (V1 m ρ) c]
  show Cert.Gcn.nodeProduct (W1 m ρ c (Proc.devRef .tc main_arg0)) (W1 m ρ c (Proc.devRef .tc main_arg3)) = _
  rw [Carry.w1_arg0, Carry.w1_arg3]
  rfl

/-- The aggregation of the first product over the edges and self loops. -/
theorem aggregate1 : W5 m ρ c (Proc.devRef .tc main_v45)
    = val_main_v45 (F := Ideal) (m ((c : Thread nD τ).loc main_arg0)) (m ((c : Thread nD τ).loc main_arg1)) (m ((c : Thread nD τ).loc main_arg3)) := by
  eval_stretch
  rw [Carry.w2_v1, Carry.w2_v3, edge_sources, edge_targets, product1]
  rfl

/-- The first bias, as the one row the launch stages. -/
theorem bias_row1 : W5 m ρ c (Proc.devRef .tc main_v46) = shapeCast S1x128 (m ((c : Thread nD τ).loc main_arg4)) shapeCasts_S128_S1x128 := by
  eval_stretch
  rw [Carry.w2_arg4]
  rfl

/-- The first hidden layer: `max (aggregate + b₁) 0`. -/
theorem hidden1 : W6 m ρ c (Proc.devRef .tc main_v47)
    = val_main_v49 (F := Ideal) (m ((c : Thread nD τ).loc main_arg0)) (m ((c : Thread nD τ).loc main_arg1)) (m ((c : Thread nD τ).loc main_arg3)) (m ((c : Thread nD τ).loc main_arg4)) := by
  refine (W6_arr m ρ c 2).trans ?_
  rw [BiasClamp1.final (V5 m ρ) c]
  show Cert.Gcn.biasReluRow (W5 m ρ c (Proc.devRef .tc main_v45)) (W5 m ρ c (Proc.devRef .tc main_v46)) = _
  rw [aggregate1, bias_row1]
  refine (Cert.Gcn.biasReluRow_reshape _ _ _).trans ?_
  rfl

/-! ## The second layer -/

/-- The second product launch leaves `H₁ · W₂`. -/
theorem product2 : W7 m ρ c (Proc.devRef .tc main_v48)
    = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ?_
  rw [Product2.final (V6 m ρ) c]
  show Cert.Gcn.nodeProduct (W6 m ρ c (Proc.devRef .tc main_v47)) (W6 m ρ c (Proc.devRef .tc main_arg5)) = _
  rw [hidden1, Carry.w6_arg5]
  rfl

/-- The aggregation of the second product. -/
theorem aggregate2 : W10 m ρ c (Proc.devRef .tc main_v89)
    = val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  eval_stretch
  rw [Carry.w7_v1, Carry.w7_v3, edge_sources, edge_targets, product2]
  rfl

/-- The second bias, as the one row the launch stages. -/
theorem bias_row2 : W10 m ρ c (Proc.devRef .tc main_v90) = shapeCast S1x128 (m ((c : Thread nD τ).loc main_arg6)) shapeCasts_S128_S1x128 := by
  eval_stretch
  rw [Carry.w7_arg6]
  rfl

/-- The second hidden layer. -/
theorem hidden2 : W11 m ρ c (Proc.devRef .tc main_v91)
    = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W11_arr m ρ c 2).trans ?_
  rw [BiasClamp2.final (V10 m ρ) c]
  show Cert.Gcn.biasReluRow (W10 m ρ c (Proc.devRef .tc main_v89)) (W10 m ρ c (Proc.devRef .tc main_v90)) = _
  rw [aggregate2, bias_row2]
  refine (Cert.Gcn.biasReluRow_reshape _ _ _).trans ?_
  rfl

/-! ## Pooling and read-out -/

/-- The mean of the second hidden layer over each graph's nodes. -/
theorem pooled : W12 m ρ c (Proc.devRef .tc main_v103)
    = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  eval_stretch
  rw [hidden2, Carry.w11_arg2]
  rfl

/-- The read-out bias, as the one row the launch stages. -/
theorem bias_row3 : W12 m ρ c (Proc.devRef .tc main_v104) = shapeCast S1x128 (m ((c : Thread nD τ).loc main_arg8)) shapeCasts_S128_S1x128 := by
  eval_stretch
  rw [Carry.w11_arg8]
  rfl

/-- THE RESULT: the last boundary's contents at the result buffer are the reference's last stage of the nine arguments. -/
theorem result : W13 m ρ c (Proc.devRef .tc main_v105)
    = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 3).trans ?_
  rw [Readout.final (V12 m ρ) c]
  show Cert.Gcn.readoutRow (W12 m ρ c (Proc.devRef .tc main_v103)) (W12 m ρ c (Proc.devRef .tc main_arg7))
    (W12 m ρ c (Proc.devRef .tc main_v104)) = _
  rw [pooled, Carry.w12_arg7, bias_row3]
  refine (Cert.Gcn.readoutRow_reshape _ _ _ _).trans ?_
  rfl

end Cert.KernelIdeal.Chain

end
-- ==== Proof.lean ====
/-
  A two-layer graph convolution with mean pooling and a linear read-out, blocked into five kernel launches, against
  the same network written with whole-array host operations.

  Both programs compute, for node features `X`, an edge list, graph ids and three weight / bias pairs,

      H₁ = max (A (X · W₁) + b₁) 0,   H₂ = max (A (H₁ · W₂) + b₂) 0,   out = mean-pool(H₂) · W_f + b_f,

  where `A` is the symmetric-normalised aggregation over the edges with self loops (degree count, inverse square
  roots, gather, scale, scatter-add) and the pooling sums each graph's nodes and divides by the node count clamped
  below at one. The aggregation and the pooling are the SAME host operations in both programs and are never opened.
  The programs differ only in the dense parts: the kernel computes each product in ten row blocks of 5000 nodes with a
  matrix-unit product into a zero accumulator (the operands first narrowed to a shorter float format), adds the bias
  and clamps in ten row blocks with the bias staged as one row, and computes the read-out in one block; the reference
  uses one `dot_general`, a broadcast add and a maximum per layer.

  On the extended reals a change of float format is the identity and both kinds of product are the plain sum
  `Σ_k x[p,k] · w[k,q]`, so each launch's output ARRAY is the reference's stage applied to the launch's input arrays
  (the row blocks tile the 50000 rows); no distributivity or cancellation is used, so the finiteness of the inputs is
  not needed. Following the program's segments from the launch memory, every live buffer equals the reference's stage
  of the nine arguments, and so does the result.

  The ideal pass rewrote nothing in the kernel, so the preservation claim is trivial. The three frames are the
  generated ones (the reference's is its run with the result dropped).
-/
import proofs.«118057_j2224793059951_1_alg».proof.Defs
import proofs.«118057_j2224793059951_1_alg».proof.Proof.Gen.Kernel
import proofs.«118057_j2224793059951_1_alg».proof.Proof.Gen.Kernel.Skeleton
import proofs.«118057_j2224793059951_1_alg».proof.Proof.Gen.Kernel.Launch
import proofs.«118057_j2224793059951_1_alg».proof.Proof.Gen.Kernel.Points
import proofs.«118057_j2224793059951_1_alg».proof.Proof.Gen.Kernel.Frame
import proofs.«118057_j2224793059951_1_alg».proof.Proof.Gen.KernelIdeal
import proofs.«118057_j2224793059951_1_alg».proof.Proof.Gen.KernelIdeal.Skeleton
import proofs.«118057_j2224793059951_1_alg».proof.Proof.Gen.KernelIdeal.Launch
import proofs.«118057_j2224793059951_1_alg».proof.Proof.Gen.KernelIdeal.Points
import proofs.«118057_j2224793059951_1_alg».proof.Proof.Gen.KernelIdeal.Frame
import proofs.«118057_j2224793059951_1_alg».proof.Proof.Gen.ReferenceIdeal
import proofs.«118057_j2224793059951_1_alg».proof.Proof.Gen.Pre_finite_inputs
import proofs.«118057_j2224793059951_1_alg».proof.Proof.RefRun
import proofs.«118057_j2224793059951_1_alg».proof.Proof.RefRead
import proofs.«118057_j2224793059951_1_alg».proof.Proof.RunValue
import proofs.«118057_j2224793059951_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The idealized reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the nine arguments both idealized programs end with the same result: the kernel's is the
    last boundary's contents at its result buffer, which is the reference's last stage of the arguments; the
    reference's run ends at that stage of its own (equal) arguments. -/
theorem algebraic : Cert.algebraic_KernelIdeal_ReferenceIdeal := by
  intro m ρ m' ρ' _ hagree
  refine ⟨fun c => Cert.KernelIdeal.Gen.W13 m ρ c (Proc.devRef .tc Cert.KernelIdeal.main_v105),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v111_eq, h0, h1, h2, h3, h4, h5, h6, h7, h8]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
